-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S50000x256 .f32) (main_arg1 : IVec S800000 32) (main_arg2 : IVec S800000 32) (main_arg3 : FVec F S800000 .f32) (main_arg4 : FVec F S256x256 .f32) (main_arg5 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S5000x256 : Shape := ⟨2, ![5000, 256]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩

abbrev nBuf : Space → Nat
  | .hbm => 27
  | .vmem => 5
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S50000x256, .f32⟩
  | .hbm, ⟨8, _⟩ => ⟨S800000x1, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x256, .f32⟩
  | .hbm, ⟨18, _⟩ => ⟨S800000x256, .f32⟩
  | .hbm, ⟨19, _⟩ => ⟨S800000x256, .f32⟩
  | .hbm, ⟨20, _⟩ => ⟨S_, .f32⟩
  | .hbm, ⟨21, _⟩ => ⟨S50000x256, .f32⟩
  | .hbm, ⟨22, _⟩ => ⟨S800000x1, .i32⟩
  | .hbm, ⟨23, _⟩ => ⟨S50000x256, .f32⟩
  | .hbm, ⟨24, _⟩ => ⟨S1x256, .f32⟩
  | .hbm, ⟨25, _⟩ => ⟨S50000x256, .f32⟩
  | .hbm, ⟨26, _⟩ => ⟨S50000x256, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S256x256_S256x256_1_0 : S256x256.Transposes [1, 0] S256x256
  inb_S5000x256_S5000x256_0_0 : ∀ a, (![0, 0] : Fin 2 → Nat) a + S5000x256.size a ≤ S5000x256.size a
  h_S5000x256 : 0 < S5000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S5000x256_S256x256_S5000x256_1_0_0_1_n_n_wf : DotDims.WF S5000x256 S256x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩

abbrev nBuf : Space → Nat
  | .hbm => 26
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x256, .f32⟩
  | .hbm, ⟨5, _⟩ => ⟨S256, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x256, .f32⟩
  | .hbm, ⟨16, _⟩ => ⟨S800000x256, .f32⟩
  | .hbm, ⟨17, _⟩ => ⟨S800000x256, .f32⟩
  | .hbm, ⟨18, _⟩ => ⟨S_, .f32⟩
  | .hbm, ⟨19, _⟩ => ⟨S50000x256, .f32⟩
  | .hbm, ⟨20, _⟩ => ⟨S800000x1, .i32⟩
  | .hbm, ⟨21, _⟩ => ⟨S50000x256, .f32⟩
  | .hbm, ⟨22, _⟩ => ⟨S50000x256, .f32⟩
  | .hbm, ⟨23, _⟩ => ⟨S1x256, .f32⟩
  | .hbm, ⟨24, _⟩ => ⟨S50000x256, .f32⟩
  | .hbm, ⟨25, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_1_0_0_n_n_wf : DotDims.WF S50000x256 S256x256 S50000x256 [1] [1] [0] [0] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_1_0_0_n_n : DotDims S50000x256 S256x256 S50000x256 where
  lhsContracting := [1]
  rhsContracting := [1]
  lhsNonContracting := [0]
  rhsNonContracting := [0]
  lhsBatch := []
  rhsBatch := []
  wf := dot_S50000x256_S256x256_S50000x256_1_1_0_0_n_n_wf

class Facts : Prop extends Facts₀ where

variable [Facts]
-- ==== Proof.MatmulBlock.lean ====
/-
  One grid point of the kernel: a block of 5000 rows of `x` times the whole 256 × 256 matrix `Wt`.

  The body loads the row block and the matrix whole, multiplies them on the matrix unit into a zero accumulator and
  stores the product whole.  On the extended reals the product's entry `(p, q)` is the plain sum over `k` of
  `x (p, k) · Wt (k, q)`: the zero accumulator adds nothing, and the contraction index of the one contracted axis is
  its coordinate `k`.
-/
import proofs.«180843_j74861279969816_2_alg».proof.Proof.Gen.KernelIdeal.Frame
import Idealize.ShloMosaic.Lib.Pipeline.Value
import Idealize.ShloMosaic.Lib.ValueIdx
import Idealize.ShloMosaic.PureOps.Ideal.Laws

noncomputable section

open scoped BigOperators

namespace Cert.KernelIdeal.Block

open Idealize.ShloMosaic Idealize.ShloMosaic.ValueIdx Cert.KernelIdeal Cert.KernelIdeal.Gen

/-- The left operand is read at the output's row and the contraction coordinate … -/
theorem lhs_row (j : S5000x256.Idx) (q : dot_S5000x256_S256x256_S5000x256_1_0_0_1_n_n.contr.Idx) :
    (dot_S5000x256_S256x256_S5000x256_1_0_0_1_n_n.lhsIdx j q 0).val = (j 0).val := by
  unfold DotDims.lhsIdx
  rw [dif_neg (show ¬(0 : Fin S5000x256.rank) ∈ dot_S5000x256_S256x256_S5000x256_1_0_0_1_n_n.lhsBatch by decide),
    dif_pos (show (0 : Fin S5000x256.rank) ∈ dot_S5000x256_S256x256_S5000x256_1_0_0_1_n_n.lhsNonContracting by decide)]
  rfl
theorem lhs_col (j : S5000x256.Idx) (q : dot_S5000x256_S256x256_S5000x256_1_0_0_1_n_n.contr.Idx) :
    (dot_S5000x256_S256x256_S5000x256_1_0_0_1_n_n.lhsIdx j q 1).val = (q ⟨0, by decide⟩).val :=
  dot_S5000x256_S256x256_S5000x256_1_0_0_1_n_n.lhsIdx_val_of_single rfl j q
/-- … and the right operand at the contraction coordinate and the output's column. -/
theorem rhs_row (j : S5000x256.Idx) (q : dot_S5000x256_S256x256_S5000x256_1_0_0_1_n_n.contr.Idx) :
    (dot_S5000x256_S256x256_S5000x256_1_0_0_1_n_n.rhsIdx j q 0).val = (q ⟨0, by decide⟩).val :=
  dot_S5000x256_S256x256_S5000x256_1_0_0_1_n_n.rhsIdx_val_of_single rfl j q
theorem rhs_col (j : S5000x256.Idx) (q : dot_S5000x256_S256x256_S5000x256_1_0_0_1_n_n.contr.Idx) :
    (dot_S5000x256_S256x256_S5000x256_1_0_0_1_n_n.rhsIdx j q 1).val = (j 1).val := by
  unfold DotDims.rhsIdx
  rw [dif_neg (show ¬(1 : Fin S256x256.rank) ∈ dot_S5000x256_S256x256_S5000x256_1_0_0_1_n_n.rhsBatch by decide),
    dif_pos (show (1 : Fin S256x256.rank) ∈ dot_S5000x256_S256x256_S5000x256_1_0_0_1_n_n.rhsNonContracting by decide)]
  rfl

/-- Entry `(p, q)` of the block product: the sum over `k` of `x0 (p, k) · x1 (k, q)`. -/
theorem pay_apply (x0 : Vec Ideal S5000x256 .f32) (x1 : Vec Ideal S256x256 .f32) (p : Fin 5000) (q : Fin 256) :
    k0_pay1 (F := Ideal) x0 x1 (ix2 p q) = ∑ k : Fin 256, x0 (ix2 p k) * x1 (ix2 k q) := by
  unfold k0_pay1
  rw [shapeCast_self]
  simp only [matmul]
  rw [Ideal.matmul_constant_zero_apply,
    ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q)
      ((contrEquiv1 dot_S5000x256_S256x256_S5000x256_1_0_0_1_n_n 256 rfl rfl).symm k) = ix2 p k :=
    funext fun a => Fin.ext (by
      match a with
      | ⟨0, _⟩ => exact lhs_row _ _
      | ⟨1, _⟩ => exact (lhs_col _ _).trans hk)
  have er : dot_S5000x256_S256x256_S5000x256_1_0_0_1_n_n.rhsIdx (ix2 p q)
      ((contrEquiv1 dot_S5000x256_S256x256_S5000x256_1_0_0_1_n_n 256 rfl rfl).symm k) = ix2 k q :=
    funext fun a => Fin.ext (by
      match a with
      | ⟨0, _⟩ => exact (rhs_row _ _).trans hk
      | ⟨1, _⟩ => exact rhs_col _ _)
  rw [el, er]

end Cert.KernelIdeal.Block

end
-- ==== Proof.Spec.lean ====
/-
  The matrix product both programs are built around, as a function of the two argument matrices:
  `prodT x W (r, o) = ∑ k, x (r, k) · W (o, k)`, the entries of `x · Wᵀ` for `x : [50000, 256]` and `W : [256, 256]`.
-/
import Idealize.ShloMosaic.Lib.ValueIdx

noncomputable section

open scoped BigOperators

namespace Cert.Spec

open Idealize.ShloMosaic Idealize.ShloMosaic.ValueIdx

/-- The product `x · Wᵀ`, entry by entry. -/
def prodT (x : (⟨2, ![50000, 256]⟩ : Shape).Idx → EReal) (w : (⟨2, ![256, 256]⟩ : Shape).Idx → EReal) :
    (⟨2, ![50000, 256]⟩ : Shape).Idx → EReal :=
  fun i => ∑ k : Fin 256, x (ix2 (n0 := 50000) (i 0) k) * w (ix2 (n0 := 256) (i 1) k)

theorem prodT_apply (x : (⟨2, ![50000, 256]⟩ : Shape).Idx → EReal) (w : (⟨2, ![256, 256]⟩ : Shape).Idx → EReal)
    (r : Fin 50000) (o : Fin 256) : prodT x w (ix2 r o) = ∑ k : Fin 256, x (ix2 r k) * w (ix2 o k) := rfl

end Cert.Spec

end
-- ==== Proof.MatmulArray.lean ====
/-
  The kernel's region as one matrix product.

  The grid has ten points; point `t` reads rows `5000 t … 5000 t + 4999` of `x` and the whole matrix
  `Wt = transpose W` (written by the one host operation before the region), and writes the block product to the same
  rows of the result.  The ten row blocks tile the 50000 rows, so after the region the result array is, entry by
  entry, `y (r, o) = ∑ k, x (r, k) · W (o, k)`.
-/
import proofs.«180843_j74861279969816_2_alg».proof.Proof.Gen.KernelIdeal.Frame
import proofs.«180843_j74861279969816_2_alg».proof.Proof.MatmulBlock
import proofs.«180843_j74861279969816_2_alg».proof.Proof.Spec
import Idealize.ShloMosaic.Lib.Pipeline.Value
import Idealize.ShloMosaic.Lib.ValueIdx
import Idealize.ShloMosaic.Lib.StableHlo.Run
import Idealize.ShloMosaic.Lib.Tactic

noncomputable section

open scoped BigOperators

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (m : (ℓ : Loc nD τ sig) → Buf (Elt Ideal) ℓ)

/-- What the region leaves in the result array. -/
abbrev y (c : Dev nD) : S50000x256.Idx → EReal :=
  prodT (m ((c : Thread nD τ).loc main_arg0)) (m ((c : Thread nD τ).loc main_arg4))

theorem hz : (![0, 0] : Fin 2 → Nat) = fun _ => 0 := funext fun a => by fin_cases a <;> rfl

/-- The printed index maps over the grid: the row windows move with the point, the matrix window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The matrix the region multiplies by is the transpose of `W`. -/
theorem wt_eq (c : Dev nD) : (V m c main_v0 : S256x256.Idx → EReal)
    = transpose S256x256 [1, 0] (m ((c : Thread nD τ).loc main_arg4)) transposes_S256x256_S256x256_1_0 := by
  show StableHlo.after hostOps0 (fun b => m (c, b)) (Proc.devRef .tc main_v0) = _
  after_results

/-- Its entry `(k, o)` is `W (o, k)`. -/
theorem wt_apply (c : Dev nD) (k o : Fin 256) :
    (V m c main_v0 : S256x256.Idx → EReal) (ix2 k o) = (m ((c : Thread nD τ).loc main_arg4) : S256x256.Idx → EReal) (ix2 o k) := by
  rw [wt_eq]
  exact transpose_apply _ _ _ (ix2 k o) (ix2 o k) (fun b => by
    match b with
    | ⟨0, _⟩ => rfl
    | ⟨1, _⟩ => rfl)

/-- Row `p` of point `t`'s block of `x` is row `5000 t + p` of `x`. -/
theorem xblk_apply (c : Dev nD) (t : Fin cfg0.N) (p : Fin 5000) (k : Fin 256) (r : Fin 50000) (hr : r.val = 5000 * t.val + p.val) :
    (iblk m c 0 t : Vec Ideal S5000x256 .f32) (ix2 p k)
      = (m ((c : Thread nD τ).loc main_arg0) : S50000x256.Idx → EReal) (ix2 r k) := by
  obtain ⟨h0, h1, -⟩ := idx_facts t
  unfold iblk
  rw [View.read_apply]
  show V m c main_arg0 _ = _
  refine (congrFun (V_main_arg0 m c) _).trans ?_
  refine congrArg (m ((c : Thread nD τ).loc main_arg0) : S50000x256.Idx → EReal) ?_
  funext a
  apply Fin.ext
  match a with
  | ⟨0, _⟩ => show win0_0.index t (0 : Fin 2) * 5000 + 1 * p.val = r.val; rw [h0, hr]; omega
  | ⟨1, _⟩ => show win0_0.index t (1 : Fin 2) * 256 + 1 * k.val = k.val; rw [h1]; omega

/-- Every point's block of the matrix window is the whole matrix. -/
theorem wblk_apply (c : Dev nD) (t : Fin cfg0.N) (k o : Fin 256) :
    (iblk m c 1 t : Vec Ideal S256x256 .f32) (ix2 k o)
      = (m ((c : Thread nD τ).loc main_arg4) : S256x256.Idx → EReal) (ix2 o k) := by
  obtain ⟨-, -, h0, h1, -⟩ := idx_facts t
  unfold iblk
  rw [View.read_apply]
  show V m c main_v0 _ = _
  refine Eq.trans (congrArg (V m c main_v0 : S256x256.Idx → EReal) ?_) (wt_apply m c k o)
  funext a
  apply Fin.ext
  match a with
  | ⟨0, _⟩ => show win0_1.index t (0 : Fin 2) * 256 + 1 * k.val = k.val; rw [h0]; omega
  | ⟨1, _⟩ => show win0_1.index t (1 : Fin 2) * 256 + 1 * o.val = o.val; rw [h1]; omega

/-- What point `t` writes back is block `t` of the product. -/
theorem flushed_eq (c : Dev nD) (t : Fin cfg0.N) :
    (dats m 0 c).flushed 2 t = ((cfg0.win 2).blk t).view.read (Elt Ideal) (y m c) := by
  show (cfg0.win 2).cut (grid0.coords t) ((dats m 0 c).after 2 t) = _
  rw [after0_2]
  unfold out0_2
  rw [View.canon_unit_zero hz]
  simp only [View.ld_unit_zero (S := S5000x256) hz, View.ld_unit_zero (S := S256x256) hz]
  obtain ⟨-, -, -, -, h0, h1⟩ := idx_facts t
  have htN : t.val < 10 := t.isLt.trans_eq (show cfg0.N = 10 from N_0)
  funext j
  obtain ⟨p, q, rfl⟩ : ∃ (p : Fin 5000) (q : Fin 256), j = ix2 p q := ⟨j 0, j 1, eq_ix2 j⟩
  show k0_pay1 (iblk m c 0 t) (iblk m c 1 t) (ix2 p q) = y m c (((cfg0.win 2).blk t).view.emb (ix2 p q))
  have hemb : ((cfg0.win 2).blk t).view.emb (ix2 p q)
      = (ix2 (⟨5000 * t.val + p.val, by have := p.isLt; omega⟩ : Fin 50000) q : S50000x256.Idx) := by
    funext a
    apply Fin.ext
    match a with
    | ⟨0, _⟩ => show win0_2.index t (0 : Fin 2) * 5000 + 1 * p.val = 5000 * t.val + p.val; rw [h0]; omega
    | ⟨1, _⟩ => show win0_2.index t (1 : Fin 2) * 256 + 1 * q.val = q.val; rw [h1]; omega
  rw [hemb]
  refine ((Block.pay_apply (iblk m c 0 t) (iblk m c 1 t) p q).trans ?_).trans (prodT_apply _ _ _ _).symm
  refine Finset.sum_congr rfl fun k _ => ?_
  rw [xblk_apply m c t p k ⟨5000 * t.val + p.val, by have := p.isLt; omega⟩ rfl, wblk_apply m c t k q]

/-- An index of the result array is in point `t`'s block iff its coordinates are in the block's ranges. -/
theorem mem_blk (t : Fin cfg0.N) (i : S50000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v1).slice (win0_2.rect t)).set ↔ _
  rw [View.set_slice_whole, Rect.mem_set_unit]
  exact Iff.rfl

/-- Row `r` lies in the block of point `r / 5000`. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  let t : Fin cfg0.N := ⟨(i 0).val / 5000, by rw [show cfg0.N = 10 from N_0]; omega⟩
  obtain ⟨-, -, -, -, h0, h1⟩ := idx_facts t
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    rw [h0]; show (i 0).val / 5000 * 5000 ≤ (i 0).val ∧ (i 0).val < (i 0).val / 5000 * 5000 + 5000; omega
  | ⟨1, _⟩ =>
    show win0_2.index t (1 : Fin 2) * 256 ≤ (i 1).val ∧ (i 1).val < win0_2.index t (1 : Fin 2) * 256 + 256
    rw [h1]; omega

/-- The result array after the region is the product. -/
theorem final (c : Dev nD) : (dats m 0 c).arrAt 2 cfg0.N = y m c :=
  (dats m 0 c).arrAt_eq_of_cover 2 (y m c) (fun t _ => flushed_eq m c t) cover

end Cert.KernelIdeal.Whole

end
-- ==== Proof.LibRowGatherScatter.lean ====
/-
  A matrix gathered by rows and scattered by rows, read at an index.

  `y[idx]` of a matrix `y : [N, C]` at a list of row numbers `idx : [E]` is, as a StableHLO gather, a gather of
  slices `[1, C]` at the start indices `[E, 1]`: entry `(e, o)` of the result is `y` at row `idx[e]` — read as
  a signed integer and clamped into `[0, N - 1]` — and column `o`.

  `zeros.at[idx].add(u)` for updates `u : [E, C]` is, as a StableHLO scatter with an adding body, a scatter of the
  rows of `u` onto the rows the start indices `[E, 1]` name: entry `(i, o)` of the result is the operand's entry plus
  the sum of `u (e, o)` over the update rows `e` whose start index — read as a signed integer, not clamped — is exactly
  `i`; an update row whose start index names no row of the operand is dropped.
-/
import Idealize.ShloMosaic.Lib.ValueIdx

noncomputable section

open scoped BigOperators

namespace Cert.LibRowGatherScatter

open Idealize.ShloMosaic Idealize.ShloMosaic.ValueIdx

/-! ## The gather -/

section Gather
variable {α : Type}

/-- The dimension numbers of a gather of whole rows: operand `[N, C]`, start indices `[E, 1]`, result `[E, C]`; the
    row axis is collapsed and named by the start index, the column axis is the offset axis. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index names: the word read signed, negative words at row 0, too large ones at the last row. -/
def clampRow {w : Nat} (N : Nat) (hN : 0 < N) (z : BitVec w) : Fin N := ⟨min z.toInt.toNat (N - 1), by omega⟩

/-- Entry `(e, o)` of the gathered matrix is the operand at the clamped row `idx[e, 0]` and column `o`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (o : Fin C) :
    Host.gather (rowGatherDims N E C wf) x idx (ix2 e o) = x (ix2 (clampRow N hN (idx (ix2 e 0))) o) := by
  unfold Host.gather
  congr 1
  funext a
  refine Fin.ext ?_
  match a with
  | ⟨0, _⟩ =>
    show (rowGatherDims N E C wf).start (ix2 e o) idx 0 + (rowGatherDims N E C wf).batchCoord (ix2 e o) 0
      + (rowGatherDims N E C wf).offCoord (ix2 e o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e o) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e o) idx 1 + (rowGatherDims N E C wf).batchCoord (ix2 e o) 1
      + (rowGatherDims N E C wf).offCoord (ix2 e o) 1 = o.val
    rw [GatherDims.batchCoord_eq_zero _ _ _ List.not_mem_nil]
    unfold GatherDims.start
    rw [dif_neg (show ¬ (1 : Fin 2) ∈ (rowGatherDims N E C wf).startIndexMap from (by decide : ¬ (1 : Fin 2) ∈ ([0] : List (Fin 2))))]
    simp only [Nat.add_zero, Nat.zero_add]
    unfold GatherDims.offCoord
    rw [dif_pos (show (1 : Fin 2) ∈ (rowGatherDims N E C wf).sKept from (by decide : (1 : Fin 2) ∈ (List.finRange 2).filter (fun a => a ∉ ([0] ++ [] : List (Fin 2)))))]
    rfl

/-- The same for any dimension numbers that ARE those of a row gather (a program's own constant, identified by `hd`). -/
theorem rowGather_apply_of_eq {N E C w : Nat} (hN : 0 < N)
    (wf : GatherDims.WF ⟨2, ![N, C]⟩ ⟨2, ![E, 1]⟩ ⟨2, ![E, C]⟩ [1] [0] [] [0] [] 1 ![1, C])
    (d : GatherDims ⟨2, ![N, C]⟩ ⟨2, ![E, 1]⟩ ⟨2, ![E, C]⟩) (hd : d = rowGatherDims N E C wf)
    (x : (⟨2, ![N, C]⟩ : Shape).Idx → α) (idx : IVec ⟨2, ![E, 1]⟩ w) (e : Fin E) (o : Fin C) :
    Host.gather d x idx (ix2 e o) = x (ix2 (clampRow N hN (idx (ix2 e 0))) o) := by
  subst hd
  exact rowGather_apply hN wf x idx e o

end Gather

/-! ## The scatter -/

/-- The dimension numbers of a scatter of whole rows: operand `[N, C]`, scatter indices `[E, 1]`, updates `[E, C]`;
    the row axis is inserted and named by the scatter index, the column axis is the window axis. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)

/-- On the row axis an update's window starts at its row's scatter index, read signed. -/
theorem start_row (j : (⟨2, ![E, C]⟩ : Shape).Idx) (idx : IVec ⟨2, ![E, 1]⟩ w) :
    (rowScatterDims N E C wf).start j idx 0 = (idx (ix2 (j 0) 0)).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis it starts at 0. -/
theorem start_col (j : (⟨2, ![E, C]⟩ : Shape).Idx) (idx : IVec ⟨2, ![E, 1]⟩ w) :
    (rowScatterDims N E C wf).start j idx 1 = 0 := by
  unfold ScatterDims.start
  rw [dif_neg (show ¬ (1 : Fin 2) ∈ (rowScatterDims N E C wf).scatterDimsToOperandDims from (by decide : ¬ (1 : Fin 2) ∈ ([0] : List (Fin 2))))]

/-- The window has no extent along the row axis … -/
theorem window_row (j : (⟨2, ![E, C]⟩ : Shape).Idx) : (rowScatterDims N E C wf).window j 0 = 0 := by
  unfold ScatterDims.window
  rw [dif_neg (show ¬ (0 : Fin 2) ∈ (rowScatterDims N E C wf).sKept from (by decide : ¬ (0 : Fin 2) ∈ (List.finRange 2).filter (fun a => a ∉ ([0] : List (Fin 2)))))]

/-- … and along the column axis its coordinate is the update's column. -/
theorem window_col (j : (⟨2, ![E, C]⟩ : Shape).Idx) : (rowScatterDims N E C wf).window j 1 = (j 1).val := by
  unfold ScatterDims.window
  rw [dif_pos (show (1 : Fin 2) ∈ (rowScatterDims N E C wf).sKept from (by decide : (1 : Fin 2) ∈ (List.finRange 2).filter (fun a => a ∉ ([0] : List (Fin 2)))))]
  rfl

/-- Update `(e, o')` lands on operand entry `(i, o)` exactly when the scatter index of row `e`, read signed, is `i`
    and the columns agree. -/
theorem resultIdx?_eq_some_iff (idx : IVec ⟨2, ![E, 1]⟩ w) (e : Fin E) (o' : Fin C) (i : Fin N) (o : Fin C) :
    (rowScatterDims N E C wf).resultIdx? (ix2 e o') idx = some (ix2 i o)
      ↔ (idx (ix2 e 0)).toInt = (i.val : ℤ) ∧ o' = o := by
  unfold ScatterDims.resultIdx?
  have hs0 := start_row wf (ix2 e o') idx
  have hs1 := start_col wf (ix2 e o') idx
  have hw0 := window_row wf (ix2 e o')
  have hw1 := window_col wf (ix2 e o')
  have e0 : (ix2 e o' : (⟨2, ![E, C]⟩ : Shape).Idx) 0 = e := rfl
  have e1 : (ix2 e o' : (⟨2, ![E, C]⟩ : Shape).Idx) 1 = o' := rfl
  rw [e0] at hs0
  rw [e1] at hw1
  constructor
  · intro h
    split at h
    · rename_i hin
      have hh := Option.some.inj h
      have h0 := congrArg Fin.val (congrFun hh 0)
      have h1 := congrArg Fin.val (congrFun hh 1)
      have hin0 := hin 0
      simp only [hs0, hw0] at h0 hin0
      simp only [hs1, hw1] at h1
      change ((idx (ix2 e 0)).toInt + ((0 : ℕ) : ℤ)).toNat = i.val at h0
      change (0 + ((o'.val : ℕ) : ℤ)).toNat = o.val at h1
      refine ⟨by omega, Fin.ext (by omega)⟩
    · exact absurd h (by simp)
  · rintro ⟨hi, rfl⟩
    have hin : ∀ a, 0 ≤ (rowScatterDims N E C wf).start (ix2 e o') idx a + ((rowScatterDims N E C wf).window (ix2 e o') a : ℤ)
        ∧ (rowScatterDims N E C wf).start (ix2 e o') idx a + ((rowScatterDims N E C wf).window (ix2 e o') a : ℤ)
          < ((⟨2, ![N, C]⟩ : Shape).size a : ℤ) := by
      intro a
      match a with
      | ⟨0, _⟩ =>
        show 0 ≤ (rowScatterDims N E C wf).start (ix2 e o') idx 0 + ((rowScatterDims N E C wf).window (ix2 e o') 0 : ℤ)
          ∧ (rowScatterDims N E C wf).start (ix2 e o') idx 0 + ((rowScatterDims N E C wf).window (ix2 e o') 0 : ℤ) < (N : ℤ)
        rw [hs0, hw0, hi]; have := i.isLt; omega
      | ⟨1, _⟩ =>
        show 0 ≤ (rowScatterDims N E C wf).start (ix2 e o') idx 1 + ((rowScatterDims N E C wf).window (ix2 e o') 1 : ℤ)
          ∧ (rowScatterDims N E C wf).start (ix2 e o') idx 1 + ((rowScatterDims N E C wf).window (ix2 e o') 1 : ℤ) < (C : ℤ)
        rw [hs1, hw1]; have := o'.isLt; omega
    rw [dif_pos hin]
    congr 1
    funext a
    refine Fin.ext ?_
    match a with
    | ⟨0, _⟩ =>
      show ((rowScatterDims N E C wf).start (ix2 e o') idx 0 + ((rowScatterDims N E C wf).window (ix2 e o') 0 : ℤ)).toNat = i.val
      rw [hs0, hw0, hi]; omega
    | ⟨1, _⟩ =>
      show ((rowScatterDims N E C wf).start (ix2 e o') idx 1 + ((rowScatterDims N E C wf).window (ix2 e o') 1 : ℤ)).toNat = o'.val
      rw [hs1, hw1]; omega

/-- Entry `(i, o)` of the accumulating scatter on the extended reals: the operand's entry plus the updates of column
    `o` in the rows whose scatter index is `i`. -/
theorem rowScatterAdd_apply (x : (⟨2, ![N, C]⟩ : Shape).Idx → EReal) (idx : IVec ⟨2, ![E, 1]⟩ w)
    (upd : (⟨2, ![E, C]⟩ : Shape).Idx → EReal) (i : Fin N) (o : Fin C) :
    Ideal.hostScatterAdd (rowScatterDims N E C wf) x idx upd (ix2 i o)
      = x (ix2 i o) + ∑ e ∈ Finset.univ.filter (fun e : Fin E => (idx (ix2 e 0)).toInt = (i.val : ℤ)), upd (ix2 e o) := by
  unfold Ideal.hostScatterAdd
  congr 1
  rw [Finset.sum_filter, sum_idx2, Finset.sum_filter]
  refine Finset.sum_congr rfl fun e _ => ?_
  by_cases he : (idx (ix2 e 0)).toInt = (i.val : ℤ)
  · rw [if_pos he, Finset.sum_eq_single o]
    · rw [if_pos ((resultIdx?_eq_some_iff wf idx e o i o).mpr ⟨he, rfl⟩)]
    · intro o' _ ho'
      rw [if_neg (fun h => ho' ((resultIdx?_eq_some_iff wf idx e o' i o).mp h).2)]
    · intro h; exact absurd (Finset.mem_univ o) h
  · rw [if_neg he]
    refine Finset.sum_eq_zero fun o' _ => ?_
    rw [if_neg (fun h => he ((resultIdx?_eq_some_iff wf idx e o' i o).mp h).1)]

/-- The host's accumulating scatter at the ideal values, for any dimension numbers that ARE those of a row scatter
    (a program's own constant, identified by `hd`). -/
theorem rowScatterAdd_host_apply {φ : FTy} (d : ScatterDims ⟨2, ![N, C]⟩ ⟨2, ![E, 1]⟩ ⟨2, ![E, C]⟩)
    (hd : d = rowScatterDims N E C wf) (x : FVec Ideal ⟨2, ![N, C]⟩ φ) (idx : IVec ⟨2, ![E, 1]⟩ w)
    (upd : FVec Ideal ⟨2, ![E, C]⟩ φ) (i : Fin N) (o : Fin C) :
    Host.scatterAdd (F := Ideal) (φ := φ) d x idx upd (ix2 i o)
      = x (ix2 i o) + ∑ e ∈ Finset.univ.filter (fun e : Fin E => (idx (ix2 e 0)).toInt = (i.val : ℤ)), upd (ix2 e o) := by
  subst hd
  exact rowScatterAdd_apply wf x idx upd i o

end Scatter

end Cert.LibRowGatherScatter

end
-- ==== Proof.BridgeOps.lean ====
/-
  The reference's gather and accumulating scatter, read at an index.

  Both are instances of the row gather and the row scatter of a matrix: the gather reads, for edge `e`, the row its
  (normalised, clamped) column index names; the scatter adds, onto row `r` of an all-zero matrix, the update rows of the
  edges whose row index is exactly `r`.
-/
import proofs.«180843_j74861279969816_2_alg».proof.Proof.Gen.ReferenceIdeal.Read
import proofs.«180843_j74861279969816_2_alg».proof.Proof.LibRowGatherScatter

noncomputable section

open scoped BigOperators

namespace Cert.ReferenceIdeal.Bridge

open Idealize.ShloMosaic Idealize.ShloMosaic.ValueIdx Idealize.ShloMosaic.StableHlo
open Cert.ReferenceIdeal Cert.ReferenceIdeal.Gen Cert.ReferenceIdeal.Read
open Cert.LibRowGatherScatter

/-- The edges whose row index, read signed, is `r`. -/
abbrev rowEdges (x1 : IVec S800000 32) (r : Fin 50000) : Finset (Fin 800000) :=
  Finset.univ.filter (fun e : Fin 800000 => (val_main_v11 (F := Ideal) x1 (ix2 e 0)).toInt = (r.val : ℤ))

/-- The row of the gathered matrix edge `e` reads: its normalised column index, clamped. -/
abbrev colRow (x2 : IVec S800000 32) (e : Fin 800000) : Fin 50000 :=
  clampRow 50000 (by decide) (val_main_v6 (F := Ideal) x2 (ix2 e 0))

/-- The program's scatter dimension numbers are those of a row scatter. -/
theorem scatter_dims : scatter_S50000x256_S800000x1_S800000x256_1_0_0_1
    = rowScatterDims 50000 800000 256 scatter_S50000x256_S800000x1_S800000x256_1_0_0_1_wf := rfl

/-- The program's gather dimension numbers are those of a row gather. -/
theorem gather_dims : gather_S50000x256_S800000x1_S800000x256_1_0_n_n_0_1_1256
    = rowGatherDims 50000 800000 256 gather_S50000x256_S800000x1_S800000x256_1_0_n_n_0_1_1256_wf := rfl

/-- The weight column broadcast along the feature axis: entry `(e, o)` is edge `e`'s value. -/
theorem weight_apply (x3 : FVec Ideal S800000 .f32) (e : Fin 800000) (o : Fin 256) :
    val_main_v8 (F := Ideal) x3 (ix2 e o) = x3 (ix1 e) := by
  rw [val_main_v8_apply, val_main_v0_apply]
  exact congrArg x3 (funext fun a => match a with | ⟨0, _⟩ => rfl)

/-- The scatter's operand is all zeros. -/
theorem zeros_apply (i : S50000x256.Idx) : val_main_v10 (F := Ideal) i = (0 : EReal) := by
  rw [val_main_v10_apply, val_main_cst_apply]
  exact Ideal.ofBits_zero_f32

set_option maxHeartbeats 100000 in
/-- The accumulating scatter of this program at `(r, o)`: column `o` of the updates summed over the edges of row `r`. -/
theorem scatter_apply (upd : FVec Ideal S800000x256 .f32) (x1 : IVec S800000 32) (r : Fin 50000) (o : Fin 256) :
    Host.scatterAdd (F := Ideal) (φ := .f32) scatter_S50000x256_S800000x1_S800000x256_1_0_0_1 (val_main_v10 (F := Ideal))
        (val_main_v11 (F := Ideal) x1) upd (ix2 r o)
      = ∑ e ∈ rowEdges x1 r, upd (ix2 e o) := by
  refine (rowScatterAdd_host_apply scatter_S50000x256_S800000x1_S800000x256_1_0_0_1_wf
    scatter_S50000x256_S800000x1_S800000x256_1_0_0_1 scatter_dims (val_main_v10 (F := Ideal)) (val_main_v11 (F := Ideal) x1) upd r o).trans ?_
  rw [zeros_apply, zero_add]

set_option maxHeartbeats 100000 in
/-- The row gather of this program at `(e, o)`. -/
theorem gather_apply (z : FVec Ideal S50000x256 .f32) (x2 : IVec S800000 32) (e : Fin 800000) (o : Fin 256) :
    Host.gather (α := EReal) gather_S50000x256_S800000x1_S800000x256_1_0_n_n_0_1_1256 z (val_main_v6 (F := Ideal) x2) (ix2 e o)
      = z (ix2 (colRow x2 e) o) :=
  rowGather_apply_of_eq (by decide) gather_S50000x256_S800000x1_S800000x256_1_0_n_n_0_1_1256_wf
    gather_S50000x256_S800000x1_S800000x256_1_0_n_n_0_1_1256 gather_dims z (val_main_v6 (F := Ideal) x2) e o

end Cert.ReferenceIdeal.Bridge

end
-- ==== Proof.LibERealFinite.lean ====
/-
  Extended reals that are real numbers: general facts used to carry an identity of real arithmetic over to the
  extended reals. A coerced real stays a coerced real under finite sums, maxima, absolute values, case
  distinctions and the exact operations (division by a nonzero real, the logarithm of a positive real); and the
  32-bit words of a few small constants denote the reals one expects.
-/
import Idealize.ShloMosaic.PureOps.Ideal

noncomputable section

open scoped BigOperators

namespace Cert.LibERealFinite

open Idealize.ShloMosaic

/-! ## Sums -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same for a double sum over two finite types. -/
theorem coe_sum₂ {ι κ : Type*} [Fintype ι] [Fintype κ] (f : ι → κ → ℝ) :
    ((∑ i, ∑ j, f i j : ℝ) : EReal) = ∑ i, ∑ j, (f i j : EReal) := by
  rw [coe_sum]
  exact Finset.sum_congr rfl fun i _ => coe_sum _ _

/-- A finite sum of extended reals that are all real is real. -/
theorem exists_real_sum {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [coe_sum]; exact Finset.sum_congr rfl fun i _ => hg i⟩

/-! ## Order operations -/

/-- The coercion of a maximum of two reals is the maximum of the coercions. -/
theorem coe_max (a b : ℝ) : ((max a b : ℝ) : EReal) = max (a : EReal) (b : EReal) :=
  Monotone.map_max EReal.coe_strictMono.monotone

/-- `max x (-x)` of a real is its absolute value. -/
theorem max_neg_coe (a : ℝ) : max (a : EReal) (-(a : EReal)) = ((|a| : ℝ) : EReal) := by
  rw [← EReal.coe_neg, ← coe_max, abs_eq_max_neg]

/-- The lattice's bottom is neutral for `max`, on either side. -/
theorem max_bot_left' (x : EReal) : max ⊥ x = x := max_eq_right bot_le
theorem max_bot_right' (x : EReal) : max x ⊥ = x := max_eq_left bot_le

/-- A case distinction between two coerced reals is the coercion of the case distinction. -/
theorem ite_coe (c : Prop) [Decidable c] (a b : ℝ) :
    (if c then (a : EReal) else (b : EReal)) = ((if c then a else b : ℝ) : EReal) := by
  split <;> rfl

/-! ## The exact operations on reals -/

/-- Dividing a real by a nonzero real. -/
theorem div_coe_coe {y : ℝ} (hy : y ≠ 0) (x : ℝ) : Ideal.div (x : EReal) (y : EReal) = ((x / y : ℝ) : EReal) := by
  rw [Ideal.div_coe hy, ← EReal.coe_mul, mul_one_div]

/-- The logarithm of a positive real. -/
theorem log_coe_pos {r : ℝ} (h : 0 < r) : Ideal.log (r : EReal) = ((Real.log r : ℝ) : EReal) := by
  rw [Ideal.log_coe, if_neg (not_le.mpr h)]

/-- The exponential of a real. -/
theorem exp_coe' (r : ℝ) : Ideal.exp (r : EReal) = ((Real.exp r : ℝ) : EReal) := rfl

/-- The hyperbolic tangent of a real. -/
theorem tanh_coe' (r : ℝ) : Ideal.tanh (r : EReal) = ((Real.tanh r : ℝ) : EReal) := rfl

/-- The expansion `1 / (1 + exp (-x))` of the logistic function at a real. -/
theorem div_one_add_exp_neg_coe (r : ℝ) :
    Ideal.div 1 (1 + Ideal.exp (-(r : EReal))) = (((1 + Real.exp (-r))⁻¹ : ℝ) : EReal) :=
  Ideal.logistic_coe r

/-! ## The words of a few constants -/

theorem ofBits_f32_zero : Ideal.ofBits .f32 0x00000000#32 = ((0 : ℝ) : EReal) := by
  simp [Ideal.ofBits, Ideal.ieee]

theorem ofBits_f32_one : Ideal.ofBits .f32 0x3F800000#32 = ((1 : ℝ) : EReal) := by
  simp [Ideal.ofBits, Ideal.ieee, -EReal.coe_mul]; norm_num

theorem ofBits_f32_half : Ideal.ofBits .f32 0x3F000000#32 = ((1 / 2 : ℝ) : EReal) := by
  simp [Ideal.ofBits, Ideal.ieee, -EReal.coe_mul]; norm_num

theorem ofBits_f32_quarter : Ideal.ofBits .f32 0x3E800000#32 = ((1 / 4 : ℝ) : EReal) := by
  simp [Ideal.ofBits, Ideal.ieee, -EReal.coe_mul]; norm_num

theorem ofBits_f32_256 : Ideal.ofBits .f32 0x43800000#32 = ((256 : ℝ) : EReal) := by
  simp [Ideal.ofBits, Ideal.ieee, -EReal.coe_mul]; norm_num

theorem ofBits_f32_10000 : Ideal.ofBits .f32 0x461C4000#32 = ((10000 : ℝ) : EReal) := by
  simp [Ideal.ofBits, Ideal.ieee, -EReal.coe_mul]; norm_num

theorem ofBits_f32_65536 : Ideal.ofBits .f32 0x47800000#32 = ((65536 : ℝ) : EReal) := by
  simp [Ideal.ofBits, Ideal.ieee, -EReal.coe_mul]; norm_num

theorem ofBits_f32_neg_inf : Ideal.ofBits .f32 0xFF800000#32 = ⊥ := by
  simp [Ideal.ofBits, Ideal.ieee]

end Cert.LibERealFinite

end
-- ==== Proof.LibSumExchange.lean ====
/-
  A weighted sum of matrix-vector products is the matrix-vector product of the weighted sum.

  For weights `v e`, rows `x e k` and a vector `u k`, all of them real numbers read as extended reals,
  `∑ e ∈ S, v e · (∑ k, x e k · u k) = ∑ k, (∑ e ∈ S, v e · x e k) · u k`:
  distributivity and an exchange of the two finite sums.  On the extended reals distributivity fails at the infinities,
  so the statement asks that every entry be real and the proof goes through the reals.
-/
import proofs.«180843_j74861279969816_2_alg».proof.Proof.LibERealFinite

noncomputable section

open scoped BigOperators

namespace Cert.LibSumExchange

open Cert.LibERealFinite

/-- The exchange over the reals. -/
theorem real_exchange {ι κ : Type*} [Fintype κ] (S : Finset ι) (v : ι → ℝ) (x : ι → κ → ℝ) (u : κ → ℝ) :
    ∑ e ∈ S, v e * ∑ k, x e k * u k = ∑ k, (∑ e ∈ S, v e * x e k) * u k := by
  simp only [Finset.mul_sum, Finset.sum_mul]
  rw [Finset.sum_comm]
  exact Finset.sum_congr rfl fun k _ => Finset.sum_congr rfl fun e _ => by ring

/-- The exchange over extended reals that are real. -/
theorem sum_mul_sum_exchange {ι κ : Type*} [Fintype κ] (S : Finset ι) (v : ι → EReal) (x : ι → κ → EReal) (u : κ → EReal)
    (hv : ∀ e, ∃ r : ℝ, v e = (r : EReal)) (hx : ∀ e k, ∃ r : ℝ, x e k = (r : EReal)) (hu : ∀ k, ∃ r : ℝ, u k = (r : EReal)) :
    ∑ e ∈ S, v e * ∑ k, x e k * u k = ∑ k, (∑ e ∈ S, v e * x e k) * u k := by
  choose v' hv using hv
  choose x' hx using hx
  choose u' hu using hu
  have hl : ∀ e, v e * ∑ k, x e k * u k = ((v' e * ∑ k, x' e k * u' k : ℝ) : EReal) := fun e => by
    rw [hv e, EReal.coe_mul, coe_sum]
    exact congrArg _ (Finset.sum_congr rfl fun k _ => by rw [hx e k, hu k, EReal.coe_mul])
  have hr : ∀ k, (∑ e ∈ S, v e * x e k) * u k = (((∑ e ∈ S, v' e * x' e k) * u' k : ℝ) : EReal) := fun k => by
    rw [hu k, EReal.coe_mul, coe_sum]
    exact congrArg (· * _) (Finset.sum_congr rfl fun e _ => by rw [hv e, hx e k, EReal.coe_mul])
  rw [Finset.sum_congr rfl fun e _ => hl e, Finset.sum_congr rfl fun k _ => hr k, ← coe_sum, ← coe_sum, real_exchange]

end Cert.LibSumExchange

end
-- ==== Proof.Bridge.lean ====
/-
  The two arrangements of the graph convolution are one function of finite inputs.

  With `S r` the edges whose row index is `r`, `g e` the (clamped) column index of edge `e` and `v e` its value,
  the reference computes `(∑ k, (∑ e ∈ S r, v e · x (g e, k)) · W (o, k)) + b o` — aggregate, then apply the linear map —
  and the kernel `(∑ e ∈ S r, v e · (x · Wᵀ) (g e, o)) + b o` — apply the linear map to every row of `x`, then aggregate.
  The gathers and the scatter use the same index arrays on both sides, so the sets `S r` and the rows `g e` are the same;
  what remains is distributivity and an exchange of two finite sums, valid because every entry of `x`, `W` and the edge
  values is a real number.  The accumulating scatter starts from zeros on both sides.
-/
import proofs.«180843_j74861279969816_2_alg».proof.Proof.BridgeOps
import proofs.«180843_j74861279969816_2_alg».proof.Proof.Spec
import proofs.«180843_j74861279969816_2_alg».proof.Proof.LibSumExchange

noncomputable section

open scoped BigOperators

namespace Cert.ReferenceIdeal.Bridge

open Idealize.ShloMosaic Idealize.ShloMosaic.ValueIdx Idealize.ShloMosaic.StableHlo
open Cert.ReferenceIdeal Cert.ReferenceIdeal.Gen Cert.ReferenceIdeal.Read
open Cert.Spec Cert.LibSumExchange

/-- The kernel's arrangement, written with the reference's index arrays: the product `x · Wᵀ` gathered by the column
    indices, weighted, scattered by the row indices onto zeros, plus the bias. -/
def reordered (x0 : FVec Ideal S50000x256 .f32) (x1 x2 : IVec S800000 32) (x3 : FVec Ideal S800000 .f32)
    (x4 : FVec Ideal S256x256 .f32) (x5 : FVec Ideal S256 .f32) : FVec Ideal S50000x256 .f32 :=
  addf (F := Ideal) (φ := .f32)
    (Host.scatterAdd (F := Ideal) (φ := .f32) scatter_S50000x256_S800000x1_S800000x256_1_0_0_1 (val_main_v10 (F := Ideal))
      (val_main_v11 (F := Ideal) x1)
      (mulf (F := Ideal) (φ := .f32) (val_main_v8 (F := Ideal) x3)
        (Host.gather (α := EReal) gather_S50000x256_S800000x1_S800000x256_1_0_n_n_0_1_1256 (prodT x0 x4) (val_main_v6 (F := Ideal) x2))))
    (val_main_v15 (F := Ideal) x5)

set_option maxHeartbeats 100000 in
/-- The reference's aggregate at `(r, k)`. -/
theorem aggregate_apply (x0 : FVec Ideal S50000x256 .f32) (x1 x2 : IVec S800000 32) (x3 : FVec Ideal S800000 .f32)
    (r : Fin 50000) (k : Fin 256) :
    val_main_v12 (F := Ideal) x0 x1 x2 x3 (ix2 r k) = ∑ e ∈ rowEdges x1 r, x3 (ix1 e) * x0 (ix2 (colRow x2 e) k) := by
  unfold val_main_v12
  refine (scatter_apply (val_main_v9 (F := Ideal) x0 x2 x3) x1 r k).trans ?_
  refine Finset.sum_congr rfl fun e _ => ?_
  rw [val_main_v9_apply, weight_apply]
  unfold val_main_v7
  rw [gather_apply]
  rfl

set_option maxHeartbeats 100000 in
/-- The kernel's aggregate at `(r, o)`. -/
theorem reordered_core_apply (x0 : FVec Ideal S50000x256 .f32) (x1 x2 : IVec S800000 32) (x3 : FVec Ideal S800000 .f32)
    (x4 : FVec Ideal S256x256 .f32) (r : Fin 50000) (o : Fin 256) :
    Host.scatterAdd (F := Ideal) (φ := .f32) scatter_S50000x256_S800000x1_S800000x256_1_0_0_1 (val_main_v10 (F := Ideal))
      (val_main_v11 (F := Ideal) x1)
      (mulf (F := Ideal) (φ := .f32) (val_main_v8 (F := Ideal) x3)
        (Host.gather (α := EReal) gather_S50000x256_S800000x1_S800000x256_1_0_n_n_0_1_1256 (prodT x0 x4) (val_main_v6 (F := Ideal) x2))) (ix2 r o)
      = ∑ e ∈ rowEdges x1 r, x3 (ix1 e) * ∑ k : Fin 256, x0 (ix2 (colRow x2 e) k) * x4 (ix2 o k) := by
  refine (scatter_apply _ x1 r o).trans ?_
  refine Finset.sum_congr rfl fun e _ => ?_
  rw [mulf_apply, weight_apply, gather_apply, prodT_apply]

set_option maxHeartbeats 200000 in
/-- The two arrangements agree wherever `x`, the edge values and `W` hold reals only. -/
theorem reordered_eq (x0 : FVec Ideal S50000x256 .f32) (x1 x2 : IVec S800000 32) (x3 : FVec Ideal S800000 .f32)
    (x4 : FVec Ideal S256x256 .f32) (x5 : FVec Ideal S256 .f32)
    (h0 : ∀ i, ∃ a : ℝ, x0 i = (a : EReal)) (h3 : ∀ i, ∃ a : ℝ, x3 i = (a : EReal)) (h4 : ∀ i, ∃ a : ℝ, x4 i = (a : EReal)) :
    reordered x0 x1 x2 x3 x4 x5 = val_main_v16 (F := Ideal) x0 x1 x2 x3 x4 x5 := by
  funext i
  obtain ⟨r, o, rfl⟩ : ∃ (r : Fin 50000) (o : Fin 256), i = ix2 r o := ⟨i 0, i 1, eq_ix2 i⟩
  rw [val_main_v16_apply, val_main_v13_apply]
  unfold reordered
  rw [addf_apply, reordered_core_apply]
  refine congrArg (· + val_main_v15 (F := Ideal) x5 (ix2 r o)) ?_
  have hl : ∀ k : Fin 256, lidx_main_v13 (ix2 r o) k = ix2 r k := fun k =>
    funext fun a => match a with | ⟨0, _⟩ => rfl | ⟨1, _⟩ => rfl
  have hr : ∀ k : Fin 256, ridx_main_v13 (ix2 r o) k = ix2 o k := fun k =>
    funext fun a => match a with | ⟨0, _⟩ => rfl | ⟨1, _⟩ => rfl
  have hR : ∑ k : Fin 256, val_main_v12 (F := Ideal) x0 x1 x2 x3 (lidx_main_v13 (ix2 r o) k) * x4 (ridx_main_v13 (ix2 r o) k)
      = ∑ k : Fin 256, (∑ e ∈ rowEdges x1 r, x3 (ix1 e) * x0 (ix2 (colRow x2 e) k)) * x4 (ix2 o k) :=
    Finset.sum_congr rfl fun k _ => by rw [hl k, hr k, aggregate_apply]
  rw [hR]
  exact sum_mul_sum_exchange (rowEdges x1 r) (fun e => x3 (ix1 e)) (fun e k => x0 (ix2 (colRow x2 e) k)) (fun k => x4 (ix2 o k))
    (fun e => h3 _) (fun e k => h0 _) (fun k => h4 _)

end Cert.ReferenceIdeal.Bridge

end
-- ==== Proof.KernelRun.lean ====
/-
  The kernel's run, read: what the result array holds after the host operations that follow the region.

  After the region the array `y = x · Wᵀ` is gathered by the column indices, weighted by the edge values, scattered
  by the row indices onto zeros, and the bias is added.  Those are the reference's own operations applied to `y`
  instead of `x`, over the same index arrays, so the result is the function `reordered` of the six arguments.
-/
import proofs.«180843_j74861279969816_2_alg».proof.Proof.Gen.KernelIdeal.Frame
import proofs.«180843_j74861279969816_2_alg».proof.Proof.MatmulArray
import proofs.«180843_j74861279969816_2_alg».proof.Proof.Bridge
import Idealize.ShloMosaic.Lib.StableHlo.Run
import Idealize.ShloMosaic.Lib.Tactic

noncomputable section

open scoped BigOperators

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (m : (ℓ : Loc nD τ sig) → Buf (Elt Ideal) ℓ) (ρ : Dev nD → PrngReg)

/-- The kernel's result as a function of the launch contents of its six arguments. -/
abbrev out (c : Dev nD) : Buf (Elt Ideal) ((c.tc : Thread nD τ).loc main_v17) :=
  Cert.ReferenceIdeal.Bridge.reordered (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5))

/-- After the region the result array of the pallas_call holds the product. -/
theorem tail_y (c : Dev nD) :
    Pipeline.withArrays (cfgs 0).spec c (V0 m c) (fun w => (dats m 0 c).arrAt w (cfgs 0).N) (Proc.devRef .tc main_v1) = y m c :=
  (Pipeline.withArrays_arr spec0 launch0.win.arr_inj c _ _ 2).trans (final m c)

/-- The arguments the later host operations read are as launched. -/
theorem tail_arg1 (c : Dev nD) :
    Pipeline.withArrays (cfgs 0).spec c (V0 m c) (fun w => (dats m 0 c).arrAt w (cfgs 0).N) (Proc.devRef .tc main_arg1)
      = m ((c.tc : Thread nD τ).loc main_arg1) :=
  (Pipeline.withArrays_of_ne _ c (V0 m c) _ main_arg1 (by exact (by decide : ∀ w, Pipeline.arrRef spec0 w ≠ main_arg1))).trans (V_main_arg1 m c)
theorem tail_arg2 (c : Dev nD) :
    Pipeline.withArrays (cfgs 0).spec c (V0 m c) (fun w => (dats m 0 c).arrAt w (cfgs 0).N) (Proc.devRef .tc main_arg2)
      = m ((c.tc : Thread nD τ).loc main_arg2) :=
  (Pipeline.withArrays_of_ne _ c (V0 m c) _ main_arg2 (by exact (by decide : ∀ w, Pipeline.arrRef spec0 w ≠ main_arg2))).trans (V_main_arg2 m c)
theorem tail_arg3 (c : Dev nD) :
    Pipeline.withArrays (cfgs 0).spec c (V0 m c) (fun w => (dats m 0 c).arrAt w (cfgs 0).N) (Proc.devRef .tc main_arg3)
      = m ((c.tc : Thread nD τ).loc main_arg3) :=
  (Pipeline.withArrays_of_ne _ c (V0 m c) _ main_arg3 (by exact (by decide : ∀ w, Pipeline.arrRef spec0 w ≠ main_arg3))).trans (V_main_arg3 m c)
theorem tail_arg5 (c : Dev nD) :
    Pipeline.withArrays (cfgs 0).spec c (V0 m c) (fun w => (dats m 0 c).arrAt w (cfgs 0).N) (Proc.devRef .tc main_arg5)
      = m ((c.tc : Thread nD τ).loc main_arg5) :=
  (Pipeline.withArrays_of_ne _ c (V0 m c) _ main_arg5 (by exact (by decide : ∀ w, Pipeline.arrRef spec0 w ≠ main_arg5))).trans (V_main_arg5 m c)

set_option maxHeartbeats 400000 in
/-- The result buffer after the later host operations. -/
theorem tail_eq (c : Dev nD) :
    Pipeline.afterTail₀ cfgs (dats m) 0 (V0 m) [hostOps1] c main_v17 = out m c := by
  unfold Pipeline.afterTail₀
  simp only [hostOps1, List.flatten_cons, List.flatten_nil, List.append_nil, List.cons_append, List.nil_append]
  after_results
  rw [tail_y, tail_arg1, tail_arg2, tail_arg3, tail_arg5]
  rfl

/-- The run: every weakly fair execution ends with the result at `out` and the arguments as launched. -/
theorem run : θ_run defs (onTc (τ := τ) (main (F := Ideal))) ⟨m, fun _ => 0, ρ⟩ fun r => ∀ c : Dev nD,
      r.2.mem ((c.tc : Thread nD τ).loc main_v17) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v17 (Pipeline.mem_restRefs_of main_v17 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Whole

end
-- ==== Proof.Finite.lean ====
/-
  The precondition read back: every float input is a real number.

  The precondition is the conjunction, over the four float inputs, of "every entry's absolute value is below +∞".
  An extended real `a` with `max a (-a) < ⊤` is neither infinity, so it is the coercion of a real.
-/
import proofs.«180843_j74861279969816_2_alg».proof.Pre_finite_inputs
import Idealize.ShloMosaic.PureOps.Ideal
import Idealize.ShloMosaic.Lib.ReduceAll
import Idealize.ShloMosaic.Lib.Pipeline.Value
import Idealize.ShloMosaic.Lib.ValueIdx

noncomputable section

namespace Cert.Pre_finite_inputs.Finite

open Idealize.ShloMosaic Idealize.ShloMosaic.ValueIdx Cert.Pre_finite_inputs

variable [Facts]
open Facts

instance : Subsingleton S_.Idx := ⟨fun a b => funext fun d => d.elim0⟩

/-- An extended real whose absolute value is below `+∞` (the word `0x7F800000`) is a real. -/
theorem real_of_abs_lt_inf (a : EReal)
    (h : FloatOps.cmpf (F := Ideal) (φ := .f32) .olt (FloatOps.hostAbsf (F := Ideal) (φ := .f32) a) (FloatOps.ofBits (F := Ideal) .f32 0x7F800000#32) = 1#1) :
    ∃ r : ℝ, a = (r : EReal) := by
  have hinf : Ideal.ofBits .f32 0x7F800000#32 = (⊤ : EReal) := by simp [Ideal.ofBits, Ideal.ieee]
  have h' : Ideal.cmp .olt (max a (-a)) (Ideal.ofBits .f32 0x7F800000#32) = 1#1 := h
  rw [hinf] at h'
  have hlt : max a (-a) < ⊤ := by
    unfold Ideal.cmp at h'
    have hb : decide (max a (-a) < ⊤) = true := by
      revert h'; cases decide (max a (-a) < ⊤) <;> simp
    exact of_decide_eq_true hb
  induction a using EReal.rec with
  | bot => exact absurd hlt (by simp)
  | coe r => exact ⟨r, rfl⟩
  | top => exact absurd hlt (by simp)

/-- A float array all of whose entries pass the test "absolute value below `+∞`" holds reals only. -/
theorem real_of_all {s : Shape} {axes : List (Fin s.rank)} (a : FVec Ideal s .f32) (hb : S_.BroadcastsInDim s (![] : Fin 0 → Fin s.rank))
    (hr : s.ReducesTo axes S_) (hu : 0 < S_.numel)
    (h : Host.reduce IntOp.andi (cmpf .olt (Host.absf a) (broadcastInDim s ![] hb (constant (F := Ideal) S_ .f32 0x7F800000#32)))
      (constantI S_ 1 1#1) hr hu ix0 = 1#1) (i : s.Idx) : ∃ r : ℝ, a i = (r : EReal) := by
  have hi := Host.reduce_andi_all _ _ hr hu ix0 h i
  refine real_of_abs_lt_inf (a i) ?_
  have hc : broadcastInDim s ![] hb (constant (F := Ideal) S_ .f32 0x7F800000#32) i
      = constant (F := Ideal) S_ .f32 0x7F800000#32 ix0 :=
    broadcastInDim_apply _ hb _ i ix0 (fun a => a.elim0)
  have : FloatOps.cmpf (F := Ideal) (φ := .f32) .olt (Host.absf a i)
      (broadcastInDim s ![] hb (constant (F := Ideal) S_ .f32 0x7F800000#32) i) = 1#1 := hi
  rw [hc] at this
  exact this

/-- The precondition at the ideal values: each of the four float inputs holds reals only. -/
theorem reals_of_pre (a0 : FVec Ideal S50000x256 .f32) (a1 a2 : IVec S800000 32) (a3 : FVec Ideal S800000 .f32)
    (a4 : FVec Ideal S256x256 .f32) (a5 : FVec Ideal S256 .f32)
    (h : fn (F := Ideal) a0 a1 a2 a3 a4 a5 = fun _ => 1#1) :
    (∀ i, ∃ r : ℝ, a0 i = (r : EReal)) ∧ (∀ i, ∃ r : ℝ, a3 i = (r : EReal))
      ∧ (∀ i, ∃ r : ℝ, a4 i = (r : EReal)) ∧ (∀ i, ∃ r : ℝ, a5 i = (r : EReal)) := by
  have h0 := congrFun h ix0
  dsimp only [fn, fn_part1] at h0
  obtain ⟨h012, h5⟩ := IntOp.andi_eq_one.1 h0
  obtain ⟨h01, h4⟩ := IntOp.andi_eq_one.1 h012
  obtain ⟨hx0, h3⟩ := IntOp.andi_eq_one.1 h01
  exact ⟨real_of_all a0 _ _ _ hx0, real_of_all a3 _ _ _ h3, real_of_all a4 _ _ _ h4, real_of_all a5 _ _ _ h5⟩

end Cert.Pre_finite_inputs.Finite

end
-- ==== Proof.lean ====
/-
  A graph convolution, `out = segment_sum (edge_val · x[edge_col], edge_row) · Wᵀ + b`, computed in two orders.

  The reference gathers the rows `x[edge_col]`, weights them by `edge_val`, adds them up per destination row
  (an accumulating scatter by `edge_row` onto zeros), multiplies the aggregate by `Wᵀ` and adds `b`.  The kernel
  multiplies first — a Pallas matmul `y = x · Wᵀ` over ten blocks of 5000 rows — and then gathers, weights and
  aggregates the rows of `y` and adds `b`.  At the ideal values the matmul is the exact product, the scatter the
  exact sum over the edges that land on a row, and both programs index with the same two integer arrays, so at entry
  `(r, o)` the claim is
      `∑ e ∈ S r, v e · (∑ k, x (g e, k) · W (o, k)) = ∑ k, (∑ e ∈ S r, v e · x (g e, k)) · W (o, k)`,
  with `S r` the edges whose row index is `r`, `g e` the clamped column index and `v e` the value of edge `e`:
  distributivity and an exchange of finite sums.  On the extended reals that needs every entry of `x`, `W` and
  `edge_val` to be a real number, which is what the precondition (all float inputs finite) provides.

  Modules: `MatmulBlock` (one grid point's product at an entry), `MatmulArray` (the ten blocks tile the product),
  `KernelRun` (the kernel's run with its later host operations read), `BridgeOps` and `Bridge` (the gather and the
  scatter at an entry; the two orders agree), `Finite` (the precondition read back), `LibRowGatherScatter`,
  `LibSumExchange`, `LibERealFinite` (general lemmas), `Spec` (the product as a function).
-/
import proofs.«180843_j74861279969816_2_alg».proof.Defs
import proofs.«180843_j74861279969816_2_alg».proof.Proof.Gen.Kernel
import proofs.«180843_j74861279969816_2_alg».proof.Proof.Gen.Kernel.Skeleton
import proofs.«180843_j74861279969816_2_alg».proof.Proof.Gen.Kernel.Launch
import proofs.«180843_j74861279969816_2_alg».proof.Proof.Gen.Kernel.Points
import proofs.«180843_j74861279969816_2_alg».proof.Proof.Gen.Kernel.Frame
import proofs.«180843_j74861279969816_2_alg».proof.Proof.Gen.KernelIdeal
import proofs.«180843_j74861279969816_2_alg».proof.Proof.Gen.KernelIdeal.Skeleton
import proofs.«180843_j74861279969816_2_alg».proof.Proof.Gen.KernelIdeal.Launch
import proofs.«180843_j74861279969816_2_alg».proof.Proof.Gen.KernelIdeal.Points
import proofs.«180843_j74861279969816_2_alg».proof.Proof.Gen.KernelIdeal.Frame
import proofs.«180843_j74861279969816_2_alg».proof.Proof.Gen.ReferenceIdeal
import proofs.«180843_j74861279969816_2_alg».proof.Proof.Gen.Pre_finite_inputs
import proofs.«180843_j74861279969816_2_alg».proof.Proof.Gen.ReferenceIdeal.Run
import proofs.«180843_j74861279969816_2_alg».proof.Proof.Gen.ReferenceIdeal.Read
import proofs.«180843_j74861279969816_2_alg».proof.Proof.KernelRun
import proofs.«180843_j74861279969816_2_alg».proof.Proof.Bridge
import proofs.«180843_j74861279969816_2_alg».proof.Proof.Finite
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel at the ideal values. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at the same array: the kernel's run ends at `reordered` of its arguments, the reference's at
    its own composed term of the same arguments, and the two agree where the float inputs are real. -/
theorem algebraic : Cert.algebraic_KernelIdeal_ReferenceIdeal := by
  intro m ρ m' ρ' hpre hagree
  refine ⟨fun c => Cert.KernelIdeal.Whole.out m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  obtain ⟨h0, h3, h4, -⟩ := Cert.Pre_finite_inputs.Finite.reals_of_pre _ _ _ _ _ _ (hpre c)
  rw [a0, a1, a2, a3, a4, a5, Cert.ReferenceIdeal.Read.val_main_v16_eq]
  exact (Cert.ReferenceIdeal.Bridge.reordered_eq _ _ _ _ _ _ h0 h3 h4).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
